-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S4000x128 : Shape := ⟨2, ![4000, 128]⟩
abbrev S4000x1 : Shape := ⟨2, ![4000, 1]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S100000x128, .f32⟩
  | .hbm, ⟨36, _⟩ => ⟨S640000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S100000x128, .f32⟩
  | .hbm, ⟨51, _⟩ => ⟨S640000x1, .i32⟩
  | .hbm, ⟨52, _⟩ => ⟨S100000x128, .f32⟩
  | .hbm, ⟨53, _⟩ => ⟨S1x64, .f32⟩
  | .hbm, ⟨54, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S128x64, .f32⟩
  | .local _ .vmem, ⟨18, _⟩ => ⟨S1x64, .f32⟩
  | .local _ .vmem, ⟨19, _⟩ => ⟨S128x64, .f32⟩
  | .local _ .vmem, ⟨20, _⟩ => ⟨S4000x64, .f32⟩
  | .local _ .vmem, ⟨21, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S100000x128, .f32⟩
  | .hbm, ⟨57, _⟩ => ⟨S640000x1, .i32⟩
  | .hbm, ⟨58, _⟩ => ⟨S100000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S100000, .f32⟩
  | .hbm, ⟨63, _⟩ => ⟨S640000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.NamedRun.lean ====
/-
  The idealized kernel program's run with its result array named. Its @main is a stretch of host operations, the first
  layer's region, a second stretch of host operations, the second layer's region. Every weakly fair execution from a
  memory with zero counters terminates without a fault, and in its final state every unscoped buffer holds what the
  fold of those four segments over the launch memory leaves in it: so the result buffer holds the fold's value at that
  buffer (the second region's output array after its write-backs), and each argument buffer, which no segment writes,
  holds what it was launched with.
-/
import proofs.«140228_j19567871000655_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the segments' fold read at it, the arguments end as launched. -/
theorem run_named : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.SageSpec.lean ====
/-
  Two layers of a mean-aggregating graph convolution, as one function of the arrays, over the extended reals.

  One dense layer takes the summed neighbour features `a` ([N,128]), the reciprocal degree `dv` (a column [N,1]),
  the node features `x` ([N,128]), two weight matrices and a bias row, and gives at (p, c)
      post ( (Σ_k (a(p,k) · dv(p)) · wl(k,c)) + b(c) + Σ_k x(p,k) · wr(k,c) ).
  The reciprocal degree is 1 / max(deg, 1). Dividing the summed features by max(deg, 1) instead is the same number at
  every extended real: max(deg, 1) is at least 1, so it is not zero, and off zero a quotient is the product with the
  inverse (`div_max_one`). That is the one law that joins a layer that multiplies by the reciprocal degree with a layer
  that divides by the degree.
-/
import Idealize.ShloMosaic.PureOps.Ideal.Laws
import Idealize.ShloMosaic.Lib.ValueIdx

noncomputable section

namespace Cert.Sage

open Idealize.ShloMosaic Idealize.ShloMosaic.ValueIdx
open scoped BigOperators

/-- An `[a, b]` matrix of extended reals. -/
abbrev Mat (a b : ℕ) : Type := (⟨2, ![a, b]⟩ : Shape).Idx → EReal
/-- A vector of extended reals. -/
abbrev Vect (a : ℕ) : Type := (⟨1, ![a]⟩ : Shape).Idx → EReal

/-- The float word of the number one, as the extended real it denotes. -/
abbrev one : EReal := Ideal.ofBits .f32 0x3F800000#32

/-- The f32 word `0x3F800000` is the number one. -/
theorem one_eq : one = 1 := by
  simp [one, Ideal.ofBits, Ideal.ieee, -EReal.coe_mul]; norm_num

/-- A quotient by `max e 1` is the product with the reciprocal of `max e 1`, for every extended real `e`: the divisor is
    at least one, so it is not zero, and off zero a quotient is the product with the inverse. -/
theorem div_max_one (a e : EReal) : Ideal.div a (max e 1) = a * Ideal.div 1 (max e 1) := by
  have h : max e 1 ≠ 0 := ne_of_gt (lt_of_lt_of_le zero_lt_one (le_max_right e 1))
  unfold Ideal.div
  rw [if_neg h, if_neg h, one_mul]

/-- The same with the number one spelt as its float word. -/
theorem div_max_word (a e : EReal) : Ideal.div a (max e one) = a * Ideal.div one (max e one) := by
  rw [one_eq]; exact div_max_one a e

/-- The rectifier: the maximum with (the float word of) zero. -/
def relu (v : EReal) : EReal := max v (Ideal.ofBits .f32 0x00000000#32)

/-- One dense layer at row `p` and column `c`. -/
def denseAt (post : EReal → EReal) {N D : ℕ} (a : Mat N 128) (dv : Mat N 1) (x : Mat N 128) (wl : Mat 128 D) (b : Mat 1 D)
    (wr : Mat 128 D) (p : Fin N) (c : Fin D) : EReal :=
  post (((∑ k : Fin 128, (a (ix2 p k) * dv (ix2 p (0 : Fin 1))) * wl (ix2 k c)) + b (ix2 (0 : Fin 1) c))
    + ∑ k : Fin 128, x (ix2 p k) * wr (ix2 k c))

/-- One dense layer as a matrix. -/
def dense (post : EReal → EReal) {N D : ℕ} (a : Mat N 128) (dv : Mat N 1) (x : Mat N 128) (wl : Mat 128 D) (b : Mat 1 D)
    (wr : Mat 128 D) : Mat N D :=
  fun i => denseAt post a dv x wl b wr (i 0) (i 1)

theorem dense_ix2 (post : EReal → EReal) {N D : ℕ} (a : Mat N 128) (dv : Mat N 1) (x : Mat N 128) (wl : Mat 128 D) (b : Mat 1 D)
    (wr : Mat 128 D) (p : Fin N) (c : Fin D) : dense post a dv x wl b wr (ix2 p c) = denseAt post a dv x wl b wr p c := rfl

/-- A dense layer at `(p, c)` depends only on row `p` of the summed features, of the reciprocal degree and of the node
    features, and on column `c` of the weights and of the bias: arrays that agree there give the same number. So a block of
    rows of a layer is the layer of the blocks of rows. -/
theorem denseAt_congr (post : EReal → EReal) {n N D : ℕ} (a' : Mat n 128) (dv' : Mat n 1) (x' : Mat n 128) (wl' : Mat 128 D)
    (b' : Mat 1 D) (wr' : Mat 128 D) (a : Mat N 128) (dv : Mat N 1) (x : Mat N 128) (wl : Mat 128 D) (b : Mat 1 D) (wr : Mat 128 D)
    (p : Fin n) (P : Fin N) (c : Fin D)
    (ha : ∀ k : Fin 128, a' (ix2 p k) = a (ix2 P k)) (hdv : dv' (ix2 p (0 : Fin 1)) = dv (ix2 P (0 : Fin 1)))
    (hx : ∀ k : Fin 128, x' (ix2 p k) = x (ix2 P k)) (hwl : ∀ k : Fin 128, wl' (ix2 k c) = wl (ix2 k c))
    (hb : b' (ix2 (0 : Fin 1) c) = b (ix2 (0 : Fin 1) c)) (hwr : ∀ k : Fin 128, wr' (ix2 k c) = wr (ix2 k c)) :
    denseAt post a' dv' x' wl' b' wr' p c = denseAt post a dv x wl b wr P c := by
  unfold denseAt
  simp only [ha, hdv, hx, hwl, hb, hwr]

/-- The reciprocal degree as a column: `1 / max(deg, 1)`. -/
def invDeg {N : ℕ} (deg : Vect N) : Mat N 1 := fun i => Ideal.div one (max (deg (ix1 (i 0))) one)

/-- A bias vector as a row. -/
def row {D : ℕ} (b : Vect D) : Mat 1 D := fun i => b (ix1 (i 1))

/-- The two layers. `agg₁`, `agg₂` sum the features of each node's neighbours (the same map of a feature matrix in
    both layers; it is never opened); `deg₁`, `deg₂` count them. The first layer is rectified, the second is not. -/
def sage {N : ℕ} (agg₁ agg₂ : Mat N 128 → Mat N 128) (deg₁ deg₂ : Vect N) (x : Mat N 128) (w1l : Mat 128 128) (b1 : Vect 128)
    (w1r : Mat 128 128) (w2l : Mat 128 64) (b2 : Vect 64) (w2r : Mat 128 64) : Mat N 64 :=
  dense id (agg₂ (dense relu (agg₁ x) (invDeg deg₁) x w1l (row b1) w1r)) (invDeg deg₂)
    (dense relu (agg₁ x) (invDeg deg₁) x w1l (row b1) w1r) w2l (row b2) w2r

/-- A layer that DIVIDES the summed features by `max(deg, 1)`, at row `p` and column `c`, is the layer that multiplies
    them by the reciprocal degree. -/
theorem denseAt_of_div (post : EReal → EReal) {N D : ℕ} (a : Mat N 128) (deg : Vect N) (x : Mat N 128) (wl : Mat 128 D)
    (b : Mat 1 D) (wr : Mat 128 D) (p : Fin N) (c : Fin D) :
    post (((∑ k : Fin 128, Ideal.div (a (ix2 p k)) (max (deg (ix1 p)) one) * wl (ix2 k c)) + b (ix2 (0 : Fin 1) c))
      + ∑ k : Fin 128, x (ix2 p k) * wr (ix2 k c))
    = denseAt post a (invDeg deg) x wl b wr p c := by
  unfold denseAt invDeg
  refine congrArg post (congrArg (· + _) (congrArg (· + _) (Finset.sum_congr rfl fun k _ => ?_)))
  rw [div_max_word]
  rfl

end Cert.Sage

end
-- ==== Proof.LibTiles.lean ====
/-
  Tiles of matrices read at an index, over variable extents. A block of columns cut out of a matrix reads the matrix
  at the shifted column. A plain matrix product into a zero accumulator, at the extended reals, is at (p, c) the sum
  over the shared axis of the left factor's row p times the right factor's column c. A four-term sum written as a left
  nest, alone or on top of a first term, is the sum over `Fin 4`. The float words of 0 and 1 are 0 and 1.
-/
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx
open scoped BigOperators

variable {α : Type}

/-- Columns `o … o + C' − 1` of an `[R, C]` matrix, read at `(p, j)`: the matrix at `(p, o + j)`. -/
theorem sliceCols_apply {R C C' : ℕ} (o : ℕ) (v : (⟨2, ![R, C]⟩ : Shape).Idx → α)
    (h : (⟨2, ![R, C]⟩ : Shape).Slices ![0, o] ⟨2, ![R, C']⟩) (p : Fin R) (j : Fin C') (hj : o + j.val < C) :
    extractStridedSlice ⟨2, ![R, C']⟩ ![0, o] v h (ix2 p j) = v (ix2 p ⟨o + j.val, hj⟩) :=
  extractStridedSlice_apply ![0, o] v h (ix2 p j) (ix2 p ⟨o + j.val, hj⟩) (fun a => match a with
    | ⟨0, _⟩ => by show p.val = 0 + p.val; omega
    | ⟨1, _⟩ => rfl)

/-- A plain `[M, K] · [K, N]` product into the zero accumulator, read at `(p, c)` at the extended reals: the sum over
    the shared axis. The four hypotheses say which coordinates the product's dimension numbers pair up. -/
theorem matmul_plain_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂) (p : Fin M) (c : Fin N) :
    matmul d prec lhs rhs (constant (F := Ideal) ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- Four terms added left to right are their sum over `Fin 4`. -/
theorem sum4_nest {M : Type*} [AddCommMonoid M] (f : Fin 4 → M) : ((f 0 + f 1) + f 2) + f 3 = ∑ k : Fin 4, f k :=
  (Fin.sum_univ_four f).symm

/-- Four terms added one after another on top of a first one are the first plus their sum over `Fin 4`. -/
theorem acc4_nest {M : Type*} [AddCommMonoid M] (a : M) (f : Fin 4 → M) :
    (((a + f 0) + f 1) + f 2) + f 3 = a + ∑ k : Fin 4, f k := by
  rw [Fin.sum_univ_four, add_assoc, add_assoc, add_assoc, add_assoc, add_assoc]

/-- The f32 word `0x3F800000` is the number one. -/
theorem one_f32 : Ideal.ofBits .f32 0x3F800000#32 = 1 := by
  simp [Ideal.ofBits, Ideal.ieee, -EReal.coe_mul]; norm_num

end Cert.LibTiles

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.KernelBody.lean ====
/-
  What one grid point of each dense-layer kernel stores, read at row `p` and column `c` of its block, over the
  extended reals: the block of summed neighbour features times the block of the reciprocal-degree column, multiplied
  into the left weights, plus the bias row, plus the block of node features multiplied into the right weights — the
  first kernel then takes the maximum with zero. Changes of float format are the identity there, a matrix product into
  a zero accumulator is the sum over the shared axis, a column spread over the columns reads its row's entry, a row
  spread over the rows reads its column's entry.
-/
import proofs.«140228_j19567871000655_2_alg».proof.Proof.Gen.KernelIdeal.Skeleton
import proofs.«140228_j19567871000655_2_alg».proof.Proof.SageSpec
import proofs.«140228_j19567871000655_2_alg».proof.Proof.LibTiles
import proofs.«140228_j19567871000655_2_alg».proof.Proof.LibRows
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Sage
open scoped BigOperators

/-- The first kernel's matrix product: which coordinates its dimension numbers pair up. -/
abbrev dA : DotDims S4000x128 S128x128 S4000x128 := dot_S4000x128_S128x128_S4000x128_1_0_0_1_n_n
/-- The second kernel's. -/
abbrev dB : DotDims S4000x128 S128x64 S4000x64 := dot_S4000x128_S128x64_S4000x64_1_0_0_1_n_n

theorem dA_l0 (i : S4000x128.Idx) (q : dA.contr.Idx) : (dA.lhsIdx i q 0).val = (i 0).val := by
  unfold DotDims.lhsIdx
  rw [dif_neg (show ¬(0 : Fin S4000x128.rank) ∈ dA.lhsBatch by decide), dif_pos (show (0 : Fin S4000x128.rank) ∈ dA.lhsNonContracting by decide)]
  rfl
theorem dA_l1 (i : S4000x128.Idx) (q : dA.contr.Idx) : (dA.lhsIdx i q 1).val = (q ⟨0, by decide⟩).val :=
  dA.lhsIdx_val_of_single rfl i q
theorem dA_r0 (i : S4000x128.Idx) (q : dA.contr.Idx) : (dA.rhsIdx i q 0).val = (q ⟨0, by decide⟩).val :=
  dA.rhsIdx_val_of_single rfl i q
theorem dA_r1 (i : S4000x128.Idx) (q : dA.contr.Idx) : (dA.rhsIdx i q 1).val = (i 1).val := by
  unfold DotDims.rhsIdx
  rw [dif_neg (show ¬(1 : Fin S128x128.rank) ∈ dA.rhsBatch by decide), dif_pos (show (1 : Fin S128x128.rank) ∈ dA.rhsNonContracting by decide)]
  rfl

theorem dB_l0 (i : S4000x64.Idx) (q : dB.contr.Idx) : (dB.lhsIdx i q 0).val = (i 0).val := by
  unfold DotDims.lhsIdx
  rw [dif_neg (show ¬(0 : Fin S4000x128.rank) ∈ dB.lhsBatch by decide), dif_pos (show (0 : Fin S4000x128.rank) ∈ dB.lhsNonContracting by decide)]
  rfl
theorem dB_l1 (i : S4000x64.Idx) (q : dB.contr.Idx) : (dB.lhsIdx i q 1).val = (q ⟨0, by decide⟩).val :=
  dB.lhsIdx_val_of_single rfl i q
theorem dB_r0 (i : S4000x64.Idx) (q : dB.contr.Idx) : (dB.rhsIdx i q 0).val = (q ⟨0, by decide⟩).val :=
  dB.rhsIdx_val_of_single rfl i q
theorem dB_r1 (i : S4000x64.Idx) (q : dB.contr.Idx) : (dB.rhsIdx i q 1).val = (i 1).val := by
  unfold DotDims.rhsIdx
  rw [dif_neg (show ¬(1 : Fin S128x64.rank) ∈ dB.rhsBatch by decide), dif_pos (show (1 : Fin S128x64.rank) ∈ dB.rhsNonContracting by decide)]
  rfl

/-- The first kernel's product at `(p, c)`: the sum over the shared axis. -/
theorem mmA_apply (l : FVec Ideal S4000x128 .bf16) (r : FVec Ideal S128x128 .bf16) (p : Fin 4000) (c : Fin 128) :
    matmul dA none l r (constant (F := Ideal) S4000x128 .f32 0x00000000#32) (ix2 p c) = ∑ k : Fin 128, l (ix2 p k) * r (ix2 k c) :=
  Cert.LibTiles.matmul_plain_apply dA rfl rfl dA_l0 dA_l1 dA_r0 dA_r1 none l r p c

/-- The second kernel's product at `(p, c)`. -/
theorem mmB_apply (l : FVec Ideal S4000x128 .bf16) (r : FVec Ideal S128x64 .bf16) (p : Fin 4000) (c : Fin 64) :
    matmul dB none l r (constant (F := Ideal) S4000x64 .f32 0x00000000#32) (ix2 p c) = ∑ k : Fin 128, l (ix2 p k) * r (ix2 k c) :=
  Cert.LibTiles.matmul_plain_apply dB rfl rfl dB_l0 dB_l1 dB_r0 dB_r1 none l r p c

/-- What a point of the first kernel stores, at `(p, c)` of its block: the rectified dense layer of its loaded blocks. -/
theorem pay0_apply (v0 : Vec Ideal S4000x128 .f32) (v2 : Vec Ideal S4000x1 .f32) (v7 : Vec Ideal S4000x128 .f32)
    (v9 : Vec Ideal S128x128 .f32) (v11 : Vec Ideal S128x128 .f32) (v14 : Vec Ideal S1x128 .f32) (p : Fin 4000) (c : Fin 128) :
    k0_pay1 (F := Ideal) v0 v2 v7 v9 v11 v14 (ix2 p c) = denseAt relu v0 v2 v7 v9 v14 v11 p c := by
  unfold k0_pay1
  rw [maximumf_apply, addf_apply, addf_apply, mmA_apply, mmA_apply, broadcast_apply,
    Idealize.ShloMosaic.shapeCast_self, Idealize.ShloMosaic.shapeCast_self, Idealize.ShloMosaic.shapeCast_self,
    broadcastTo_1b_ab_apply]
  unfold denseAt relu
  simp only [truncf_apply, mulf_apply, Cert.LibRows.broadcastTo_a1_ab_apply]
  rfl

/-- What a point of the second kernel stores, at `(p, c)` of its block: the dense layer of its loaded blocks. -/
theorem pay1_apply (v0 : Vec Ideal S4000x128 .f32) (v2 : Vec Ideal S4000x1 .f32) (v7 : Vec Ideal S4000x128 .f32)
    (v10 : Vec Ideal S128x64 .f32) (v12 : Vec Ideal S128x64 .f32) (v15 : Vec Ideal S1x64 .f32) (p : Fin 4000) (c : Fin 64) :
    k1_pay1 (F := Ideal) v0 v2 v7 v10 v12 v15 (ix2 p c) = denseAt id v0 v2 v7 v10 v15 v12 p c := by
  unfold k1_pay1
  rw [addf_apply, addf_apply, mmB_apply, mmB_apply,
    Idealize.ShloMosaic.shapeCast_self, Idealize.ShloMosaic.shapeCast_self, Idealize.ShloMosaic.shapeCast_self, Idealize.ShloMosaic.shapeCast_self,
    broadcastTo_1b_ab_apply]
  unfold denseAt
  simp only [truncf_apply, mulf_apply, Cert.LibRows.broadcastTo_a1_ab_apply]
  rfl

end Cert.KernelIdeal.Body

end
-- ==== Proof.Blocks.lean ====
/-
  From blocks to arrays, for each of the two regions, at any contents `V` the region may find its arrays in: the grid
  has 25 points; point `t` stages rows `4000 t … 4000 t + 3999` of the summed neighbour features, of the
  reciprocal-degree column and of the node features, the whole weight matrices and the whole bias row, and writes back
  rows `4000 t … 4000 t + 3999` of the output. A row of a dense layer depends only on the same row of the row-blocked
  operands, so what point `t` writes back is block `t` of the layer of the WHOLE arrays; the 25 blocks tile the output,
  so the output array ends holding that layer.
-/
import proofs.«140228_j19567871000655_2_alg».proof.Proof.Gen.KernelIdeal.Frame
import proofs.«140228_j19567871000655_2_alg».proof.Proof.KernelBody
import Idealize.ShloMosaic.Lib.Pipeline.Value

set_option maxRecDepth 16384

noncomputable section

namespace Cert.KernelIdeal.Blocks

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first (rectified) layer -/

/-- Where each window's block sits at grid point `t`: the row-blocked windows at block row `t`, the weights and the
    bias at their only block (decided over the 25 points). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The block of summed neighbour features at point `t` is rows `4000 t … 4000 t + 3999` of the array. -/
theorem blk0_0 (c : Dev nD) (t : Fin cfg0.N) (y : S4000x128.Idx) (i : S100000x128.Idx)
    (h0 : (i 0).val = 4000 * t.val + (y 0).val) (h1 : (i 1).val = (y 1).val) :
    (iblk0 V c 0 t : Vec Ideal S4000x128 .f32) y = (V c main_v22 : S100000x128.Idx → EReal) i := by
  obtain ⟨e0, e1, -⟩ := idx0 t
  show V c main_v22 (((cfg0.win 0).blk t).view.emb y) = V c main_v22 i
  refine congrArg (V c main_v22) (funext fun a => Fin.ext ?_)
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The block of the reciprocal-degree column at point `t` is the same rows of the column. -/
theorem blk0_1 (c : Dev nD) (t : Fin cfg0.N) (y : S4000x1.Idx) (i : S100000x1.Idx)
    (h0 : (i 0).val = 4000 * t.val + (y 0).val) (h1 : (i 1).val = (y 1).val) :
    (iblk0 V c 1 t : Vec Ideal S4000x1 .f32) y = (V c main_v12 : S100000x1.Idx → EReal) i := by
  obtain ⟨-, -, e0, e1, -⟩ := idx0 t
  show V c main_v12 (((cfg0.win 1).blk t).view.emb y) = V c main_v12 i
  refine congrArg (V c main_v12) (funext fun a => Fin.ext ?_)
  match a with
  | ⟨0, _⟩ => show win0_1.index t (0 : Fin 2) * 4000 + 1 * (y 0).val = (i 0).val; rw [e0, h0]; omega
  | ⟨1, _⟩ => show win0_1.index t (1 : Fin 2) * 1 + 1 * (y 1).val = (i 1).val; rw [e1, h1]; omega

/-- The block of node features at point `t` is the same rows of the feature matrix. -/
theorem blk0_2 (c : Dev nD) (t : Fin cfg0.N) (y : S4000x128.Idx) (i : S100000x128.Idx)
    (h0 : (i 0).val = 4000 * t.val + (y 0).val) (h1 : (i 1).val = (y 1).val) :
    (iblk0 V c 2 t : Vec Ideal S4000x128 .f32) y = (V c main_arg0 : S100000x128.Idx → EReal) i := by
  obtain ⟨-, -, -, -, e0, e1, -⟩ := idx0 t
  show V c main_arg0 (((cfg0.win 2).blk t).view.emb y) = V c main_arg0 i
  refine congrArg (V c main_arg0) (funext fun a => Fin.ext ?_)
  match a with
  | ⟨0, _⟩ => show win0_2.index t (0 : Fin 2) * 4000 + 1 * (y 0).val = (i 0).val; rw [e0, h0]; omega
  | ⟨1, _⟩ => show win0_2.index t (1 : Fin 2) * 128 + 1 * (y 1).val = (i 1).val; rw [e1, h1]; omega

/-- The left weights' only block is the whole matrix. -/
theorem blk0_3 (c : Dev nD) (t : Fin cfg0.N) (y : S128x128.Idx) :
    (iblk0 V c 3 t : Vec Ideal S128x128 .f32) y = (V c main_arg2 : S128x128.Idx → EReal) y := by
  obtain ⟨-, -, -, -, -, -, e0, e1, -⟩ := idx0 t
  show V c main_arg2 (((cfg0.win 3).blk t).view.emb y) = V c main_arg2 y
  refine congrArg (V c main_arg2) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row's only block is the whole row. -/
theorem blk0_4 (c : Dev nD) (t : Fin cfg0.N) (y : S1x128.Idx) :
    (iblk0 V c 4 t : Vec Ideal S1x128 .f32) y = (V c main_v23 : S1x128.Idx → EReal) y := by
  obtain ⟨-, -, -, -, -, -, -, -, e0, e1, -⟩ := idx0 t
  show V c main_v23 (((cfg0.win 4).blk t).view.emb y) = V c main_v23 y
  refine congrArg (V c main_v23) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The right weights' only block is the whole matrix. -/
theorem blk0_5 (c : Dev nD) (t : Fin cfg0.N) (y : S128x128.Idx) :
    (iblk0 V c 5 t : Vec Ideal S128x128 .f32) y = (V c main_arg4 : S128x128.Idx → EReal) y := by
  obtain ⟨-, -, -, -, -, -, -, -, -, -, e0, e1, -⟩ := idx0 t
  show V c main_arg4 (((cfg0.win 5).blk t).view.emb y) = V c main_arg4 y
  refine congrArg (V c main_arg4) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The layer this region computes, as one matrix of the arrays as the region finds them. -/
abbrev layer0 (c : Dev nD) : S100000x128.Idx → EReal :=
  dense relu (V c main_v22) (V c main_v12) (V c main_arg0) (V c main_arg2) (V c main_v23) (V c main_arg4)

/-- What point `t` writes back is block `t` of the layer: row `p` of the stored block is row `4000 t + p` of the layer,
    because that row depends only on the same rows of the row-blocked operands. -/
theorem flushed0 (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz, View.ld_unit_zero (S := S128x128) hz,
    View.ld_unit_zero (S := S1x128) hz]
  obtain ⟨-, -, -, -, -, -, -, -, -, -, -, -, e0, e1⟩ := idx0 t
  have hN : cfg0.N = 25 := N_0
  funext j
  obtain ⟨p, q, rfl⟩ : ∃ (p : Fin 4000) (q : Fin 128), j = ix2 p q := ⟨j 0, j 1, eq_ix2 j⟩
  have hP : 4000 * t.val + p.val < 100000 := by have := t.isLt; have := p.isLt; omega
  have hemb : ((cfg0.win 6).blk t).view.emb (ix2 p q) = ix2 (⟨4000 * t.val + p.val, hP⟩ : Fin 100000) q := by
    funext a; apply Fin.ext
    match a with
    | ⟨0, _⟩ => show win0_6.index t (0 : Fin 2) * 4000 + 1 * p.val = 4000 * t.val + p.val; rw [e0]; omega
    | ⟨1, _⟩ => show win0_6.index t (1 : Fin 2) * 128 + 1 * q.val = q.val; rw [e1]; omega
  show k0_pay1 (F := Ideal) (iblk0 V c 0 t) (iblk0 V c 1 t) (iblk0 V c 2 t) (iblk0 V c 3 t) (iblk0 V c 5 t) (iblk0 V c 4 t) (ix2 p q)
    = layer0 V c (((cfg0.win 6).blk t).view.emb (ix2 p q))
  rw [hemb]
  refine (pay0_apply (iblk0 V c 0 t) (iblk0 V c 1 t) (iblk0 V c 2 t) (iblk0 V c 3 t) (iblk0 V c 5 t) (iblk0 V c 4 t) p q).trans ?_
  exact denseAt_congr relu (iblk0 V c 0 t) (iblk0 V c 1 t) (iblk0 V c 2 t) (iblk0 V c 3 t) (iblk0 V c 4 t) (iblk0 V c 5 t)
    (V c main_v22) (V c main_v12) (V c main_arg0) (V c main_arg2) (V c main_v23) (V c main_arg4) p ⟨4000 * t.val + p.val, hP⟩ q
    (fun k => blk0_0 V c t (ix2 p k) (ix2 ⟨4000 * t.val + p.val, hP⟩ k) rfl rfl)
    (blk0_1 V c t (ix2 p (0 : Fin 1)) (ix2 ⟨4000 * t.val + p.val, hP⟩ (0 : Fin 1)) rfl rfl)
    (fun k => blk0_2 V c t (ix2 p k) (ix2 ⟨4000 * t.val + p.val, hP⟩ k) rfl rfl)
    (fun k => blk0_3 V c t (ix2 k q)) (blk0_4 V c t (ix2 (0 : Fin 1) q)) (fun k => blk0_5 V c t (ix2 k q))

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v24).slice (win0_6.rect t)).set ↔ _
  rw [View.set_slice_whole, Rect.mem_set_unit]
  exact Iff.rfl

/-- The 25 blocks of 4000 rows tile the 100000 rows: row `r` is in block `r / 4000`. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have ht : (i 0).val / 4000 < cfg0.N := by rw [hN]; omega
  refine ⟨⟨(i 0).val / 4000, ht⟩, flush0_6 _, ?_⟩
  rw [mem_blk0]
  obtain ⟨-, -, -, -, -, -, -, -, -, -, -, -, e0, e1⟩ := idx0 ⟨(i 0).val / 4000, ht⟩
  intro a
  match a with
  | ⟨0, _⟩ =>
    show win0_6.index ⟨(i 0).val / 4000, ht⟩ (0 : Fin 2) * 4000 ≤ (i 0).val ∧ (i 0).val < win0_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, ht⟩ (1 : Fin 2) * 128 ≤ (i 1).val ∧ (i 1).val < win0_6.index ⟨(i 0).val / 4000, ht⟩ (1 : Fin 2) * 128 + 128
    rw [e1]; omega

/-- So after the region its output array holds the layer. -/
theorem final0 (c : Dev nD) : (dat0 V c).arrAt 6 cfg0.N = layer0 V c :=
  (dat0 V c).arrAt_eq_of_cover 6 (layer0 V c) (fun t _ => flushed0 V c t) (cover0)

/-! ## Region 1: the second layer -/

/-- Where each window's block sits at grid point `t`: the row-blocked windows at block row `t`, the weights and the
    bias at their only block (decided over the 25 points). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The block of summed neighbour features at point `t` is rows `4000 t … 4000 t + 3999` of the array. -/
theorem blk1_0 (c : Dev nD) (t : Fin cfg1.N) (y : S4000x128.Idx) (i : S100000x128.Idx)
    (h0 : (i 0).val = 4000 * t.val + (y 0).val) (h1 : (i 1).val = (y 1).val) :
    (iblk1 V c 0 t : Vec Ideal S4000x128 .f32) y = (V c main_v34 : S100000x128.Idx → EReal) i := by
  obtain ⟨e0, e1, -⟩ := idx1 t
  show V c main_v34 (((cfg1.win 0).blk t).view.emb y) = V c main_v34 i
  refine congrArg (V c main_v34) (funext fun a => Fin.ext ?_)
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

/-- The block of the reciprocal-degree column at point `t` is the same rows of the column. -/
theorem blk1_1 (c : Dev nD) (t : Fin cfg1.N) (y : S4000x1.Idx) (i : S100000x1.Idx)
    (h0 : (i 0).val = 4000 * t.val + (y 0).val) (h1 : (i 1).val = (y 1).val) :
    (iblk1 V c 1 t : Vec Ideal S4000x1 .f32) y = (V c main_v12 : S100000x1.Idx → EReal) i := by
  obtain ⟨-, -, e0, e1, -⟩ := idx1 t
  show V c main_v12 (((cfg1.win 1).blk t).view.emb y) = V c main_v12 i
  refine congrArg (V c main_v12) (funext fun a => Fin.ext ?_)
  match a with
  | ⟨0, _⟩ => show win1_1.index t (0 : Fin 2) * 4000 + 1 * (y 0).val = (i 0).val; rw [e0, h0]; omega
  | ⟨1, _⟩ => show win1_1.index t (1 : Fin 2) * 1 + 1 * (y 1).val = (i 1).val; rw [e1, h1]; omega

/-- The block of node features at point `t` is the same rows of the feature matrix. -/
theorem blk1_2 (c : Dev nD) (t : Fin cfg1.N) (y : S4000x128.Idx) (i : S100000x128.Idx)
    (h0 : (i 0).val = 4000 * t.val + (y 0).val) (h1 : (i 1).val = (y 1).val) :
    (iblk1 V c 2 t : Vec Ideal S4000x128 .f32) y = (V c main_v24 : S100000x128.Idx → EReal) i := by
  obtain ⟨-, -, -, -, e0, e1, -⟩ := idx1 t
  show V c main_v24 (((cfg1.win 2).blk t).view.emb y) = V c main_v24 i
  refine congrArg (V c main_v24) (funext fun a => Fin.ext ?_)
  match a with
  | ⟨0, _⟩ => show win1_2.index t (0 : Fin 2) * 4000 + 1 * (y 0).val = (i 0).val; rw [e0, h0]; omega
  | ⟨1, _⟩ => show win1_2.index t (1 : Fin 2) * 128 + 1 * (y 1).val = (i 1).val; rw [e1, h1]; omega

/-- The left weights' only block is the whole matrix. -/
theorem blk1_3 (c : Dev nD) (t : Fin cfg1.N) (y : S128x64.Idx) :
    (iblk1 V c 3 t : Vec Ideal S128x64 .f32) y = (V c main_arg5 : S128x64.Idx → EReal) y := by
  obtain ⟨-, -, -, -, -, -, e0, e1, -⟩ := idx1 t
  show V c main_arg5 (((cfg1.win 3).blk t).view.emb y) = V c main_arg5 y
  refine congrArg (V c main_arg5) (funext fun a => Fin.ext ?_)
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- The bias row's only block is the whole row. -/
theorem blk1_4 (c : Dev nD) (t : Fin cfg1.N) (y : S1x64.Idx) :
    (iblk1 V c 4 t : Vec Ideal S1x64 .f32) y = (V c main_v35 : S1x64.Idx → EReal) y := by
  obtain ⟨-, -, -, -, -, -, -, -, e0, e1, -⟩ := idx1 t
  show V c main_v35 (((cfg1.win 4).blk t).view.emb y) = V c main_v35 y
  refine congrArg (V c main_v35) (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- The right weights' only block is the whole matrix. -/
theorem blk1_5 (c : Dev nD) (t : Fin cfg1.N) (y : S128x64.Idx) :
    (iblk1 V c 5 t : Vec Ideal S128x64 .f32) y = (V c main_arg7 : S128x64.Idx → EReal) y := by
  obtain ⟨-, -, -, -, -, -, -, -, -, -, e0, e1, -⟩ := idx1 t
  show V c main_arg7 (((cfg1.win 5).blk t).view.emb y) = V c main_arg7 y
  refine congrArg (V c main_arg7) (funext fun a => Fin.ext ?_)
  match a with
  | ⟨0, _⟩ => show win1_5.index t (0 : Fin 2) * 128 + 1 * (y 0).val = (y 0).val; rw [e0]; omega
  | ⟨1, _⟩ => show win1_5.index t (1 : Fin 2) * 64 + 1 * (y 1).val = (y 1).val; rw [e1]; omega

/-- The layer this region computes, as one matrix of the arrays as the region finds them. -/
abbrev layer1 (c : Dev nD) : S100000x64.Idx → EReal :=
  dense id (V c main_v34) (V c main_v12) (V c main_v24) (V c main_arg5) (V c main_v35) (V c main_arg7)

/-- What point `t` writes back is block `t` of the layer: row `p` of the stored block is row `4000 t + p` of the layer,
    because that row depends only on the same rows of the row-blocked operands. -/
theorem flushed1 (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz, View.ld_unit_zero (S := S128x64) hz,
    View.ld_unit_zero (S := S1x64) hz]
  obtain ⟨-, -, -, -, -, -, -, -, -, -, -, -, e0, e1⟩ := idx1 t
  have hN : cfg1.N = 25 := N_1
  funext j
  obtain ⟨p, q, rfl⟩ : ∃ (p : Fin 4000) (q : Fin 64), j = ix2 p q := ⟨j 0, j 1, eq_ix2 j⟩
  have hP : 4000 * t.val + p.val < 100000 := by have := t.isLt; have := p.isLt; omega
  have hemb : ((cfg1.win 6).blk t).view.emb (ix2 p q) = ix2 (⟨4000 * t.val + p.val, hP⟩ : Fin 100000) q := by
    funext a; apply Fin.ext
    match a with
    | ⟨0, _⟩ => show win1_6.index t (0 : Fin 2) * 4000 + 1 * p.val = 4000 * t.val + p.val; rw [e0]; omega
    | ⟨1, _⟩ => show win1_6.index t (1 : Fin 2) * 64 + 1 * q.val = q.val; rw [e1]; omega
  show k1_pay1 (F := Ideal) (iblk1 V c 0 t) (iblk1 V c 1 t) (iblk1 V c 2 t) (iblk1 V c 3 t) (iblk1 V c 5 t) (iblk1 V c 4 t) (ix2 p q)
    = layer1 V c (((cfg1.win 6).blk t).view.emb (ix2 p q))
  rw [hemb]
  refine (pay1_apply (iblk1 V c 0 t) (iblk1 V c 1 t) (iblk1 V c 2 t) (iblk1 V c 3 t) (iblk1 V c 5 t) (iblk1 V c 4 t) p q).trans ?_
  exact denseAt_congr id (iblk1 V c 0 t) (iblk1 V c 1 t) (iblk1 V c 2 t) (iblk1 V c 3 t) (iblk1 V c 4 t) (iblk1 V c 5 t)
    (V c main_v34) (V c main_v12) (V c main_v24) (V c main_arg5) (V c main_v35) (V c main_arg7) p ⟨4000 * t.val + p.val, hP⟩ q
    (fun k => blk1_0 V c t (ix2 p k) (ix2 ⟨4000 * t.val + p.val, hP⟩ k) rfl rfl)
    (blk1_1 V c t (ix2 p (0 : Fin 1)) (ix2 ⟨4000 * t.val + p.val, hP⟩ (0 : Fin 1)) rfl rfl)
    (fun k => blk1_2 V c t (ix2 p k) (ix2 ⟨4000 * t.val + p.val, hP⟩ k) rfl rfl)
    (fun k => blk1_3 V c t (ix2 k q)) (blk1_4 V c t (ix2 (0 : Fin 1) q)) (fun k => blk1_5 V c t (ix2 k q))

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v36).slice (win1_6.rect t)).set ↔ _
  rw [View.set_slice_whole, Rect.mem_set_unit]
  exact Iff.rfl

/-- The 25 blocks of 4000 rows tile the 100000 rows: row `r` is in block `r / 4000`. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 25 := N_1
  have ht : (i 0).val / 4000 < cfg1.N := by rw [hN]; omega
  refine ⟨⟨(i 0).val / 4000, ht⟩, flush1_6 _, ?_⟩
  rw [mem_blk1]
  obtain ⟨-, -, -, -, -, -, -, -, -, -, -, -, e0, e1⟩ := idx1 ⟨(i 0).val / 4000, ht⟩
  intro a
  match a with
  | ⟨0, _⟩ =>
    show win1_6.index ⟨(i 0).val / 4000, ht⟩ (0 : Fin 2) * 4000 ≤ (i 0).val ∧ (i 0).val < win1_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, ht⟩ (1 : Fin 2) * 64 ≤ (i 1).val ∧ (i 1).val < win1_6.index ⟨(i 0).val / 4000, ht⟩ (1 : Fin 2) * 64 + 64
    rw [e1]; omega

/-- So after the region its output array holds the layer. -/
theorem final1 (c : Dev nD) : (dat1 V c).arrAt 6 cfg1.N = layer1 V c :=
  (dat1 V c).arrAt_eq_of_cover 6 (layer1 V c) (fun t _ => flushed1 V c t) (cover1)

end Cert.KernelIdeal.Blocks

end
-- ==== Proof.HostChain.lean ====
/-
  The arrays the two regions find, as terms of the argument arrays.

  Before the first region the host gathers the node features at the edges' sources and scatter-adds them at the edges'
  targets (the summed neighbour features), scatter-adds ones at the targets (the degree), takes 1 / max(degree, 1) and
  lays it out as a column, and lays the first bias out as a row. Between the regions it gathers and scatter-adds the
  first region's output the same way and lays the second bias out as a row. The gather followed by the scatter-add is
  carried as ONE map `agg` of the feature matrix and is never opened; the reciprocal-degree column read at a row is
  1 / max(deg, 1) at that row; a bias laid out as a row reads the bias at the column.
-/
import proofs.«140228_j19567871000655_2_alg».proof.Proof.Gen.KernelIdeal.Frame
import proofs.«140228_j19567871000655_2_alg».proof.Proof.Blocks
import Idealize.ShloMosaic.Lib.ValueLayout
import Idealize.ShloMosaic.Lib.StableHlo.Run

set_option maxRecDepth 16384

noncomputable section

namespace Cert.KernelIdeal.Chain

open Cert.KernelIdeal Cert.KernelIdeal.Gen Cert.KernelIdeal.Blocks Cert.Sage
open Idealize.ShloMosaic Idealize.ShloMosaic.TcCoe Idealize.ShloMosaic.ValueIdx Idealize.SL.Sem Idealize.ShloMosaic.StableHlo
open Idealize.ShloMosaic.Pipeline (Dat)

/-- The edge list: row 0 the sources, row 1 the targets. -/
abbrev Edges : Type := (⟨S2x640000, .i32⟩ : BufTy).Contents (Elt Ideal)

/-- The edges' sources. -/
def srcRow (e : Edges) : (⟨S640000, .i32⟩ : BufTy).Contents (Elt Ideal) :=
  shapeCast S640000 (extractStridedSlice S1x640000 ![0, 0] e slices_S2x640000_S1x640000_0_0) shapeCasts_S1x640000_S640000

/-- The edges' targets. -/
def dstRow (e : Edges) : (⟨S640000, .i32⟩ : BufTy).Contents (Elt Ideal) :=
  shapeCast S640000 (extractStridedSlice S1x640000 ![1, 0] e slices_S2x640000_S1x640000_1_0) shapeCasts_S1x640000_S640000

/-- The sources as a column of row indices, a negative one counted from the end. -/
def srcCol (e : Edges) : (⟨S640000x1, .i32⟩ : BufTy).Contents (Elt Ideal) :=
  broadcastInDim S640000x1 ![0] bcast_S640000_S640000x1_0
    (select (cmpi .slt (srcRow e) (broadcastInDim S640000 ![] bcast_S_S640000 (constantI S_ 32 0#32)))
      (addi (srcRow e) (broadcastInDim S640000 ![] bcast_S_S640000 (constantI S_ 32 100000#32))) (srcRow e))

/-- The targets as a column of row indices. -/
def dstCol (e : Edges) : (⟨S640000x1, .i32⟩ : BufTy).Contents (Elt Ideal) :=
  broadcastInDim S640000x1 ![0] bcast_S640000_S640000x1_0 (dstRow e)

/-- The sum over neighbours: the rows of `X` at the edges' sources, added up at the edges' targets. -/
def agg (e : Edges) (X : FVec Ideal S100000x128 .f32) : FVec Ideal S100000x128 .f32 :=
  Host.scatterAdd (F := Ideal) (φ := .f32) scatter_S100000x128_S640000x1_S640000x128_1_0_0_1
    (broadcastInDim S100000x128 ![] bcast_S_S100000x128 (constant (F := Ideal) S_ .f32 0x00000000#32)) (dstCol e)
    (Host.gather gather_S100000x128_S640000x1_S640000x128_1_0_n_n_0_1_1128 X (srcCol e))

/-- The degree: ones added up at the edges' targets. -/
def deg (e : Edges) : FVec Ideal S100000 .f32 :=
  Host.scatterAdd (F := Ideal) (φ := .f32) scatter_S100000_S640000x1_S640000_n_0_0_1
    (broadcastInDim S100000 ![] bcast_S_S100000 (constant (F := Ideal) S_ .f32 0x00000000#32)) (dstCol e)
    (broadcastInDim S640000 ![] bcast_S_S640000 (constant (F := Ideal) S_ .f32 0x3F800000#32))

/-- The reciprocal degree `1 / max(deg, 1)`, laid out as a column. -/
def invDegCol (e : Edges) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf (deg e) (broadcastInDim S100000 ![] bcast_S_S100000 (constant (F := Ideal) S_ .f32 0x3F800000#32))))

/-- The reciprocal-degree column read at row `p` is `1 / max(deg p, 1)`. -/
theorem invDegCol_eq (e : Edges) : (invDegCol e : Mat 100000 1) = invDeg (deg e) := by
  unfold invDegCol
  generalize deg e = d
  funext i
  have hk : ∀ a : Fin S100000.rank, ((ix1 (i 0) : S100000.Idx) a).val
      = if S100000.size a = 1 then 0 else (i ((![0] : Fin 1 → Fin 2) a)).val := fun a => by
    match a with
    | ⟨0, _⟩ => show (i 0).val = if (100000 : Nat) = 1 then 0 else (i 0).val; rw [if_neg (by decide)]
  have h1 : broadcastInDim S100000 ![] bcast_S_S100000 (constant (F := Ideal) S_ .f32 0x3F800000#32) (ix1 (i 0)) = one :=
    (broadcastInDim_apply _ bcast_S_S100000 (constant (F := Ideal) S_ .f32 0x3F800000#32) (ix1 (i 0)) ix0 (fun a => a.elim0)).trans rfl
  rw [broadcastInDim_apply _ bcast_S100000_S100000x1_0 _ i (ix1 (i 0)) hk]
  show Ideal.div (broadcastInDim S100000 ![] bcast_S_S100000 (constant (F := Ideal) S_ .f32 0x3F800000#32) (ix1 (i 0)))
      (max (d (ix1 (i 0))) (broadcastInDim S100000 ![] bcast_S_S100000 (constant (F := Ideal) S_ .f32 0x3F800000#32) (ix1 (i 0))))
    = Ideal.div one (max (d (ix1 (i 0))) one)
  rw [h1]

/-- A 128-vector laid out as a row reads, at column `j`, the vector at `j`. -/
theorem biasRow128 (b : FVec Ideal S128 .f32) : (shapeCast S1x128 b shapeCasts_S128_S1x128 : Mat 1 128) = row b := by
  funext i
  obtain ⟨u, j, rfl⟩ : ∃ (u : Fin 1) (j : Fin 128), i = ix2 u j := ⟨i 0, i 1, eq_ix2 i⟩
  exact shapeCast_a_1a_apply b shapeCasts_S128_S1x128 u j

/-- A 64-vector laid out as a row reads, at column `j`, the vector at `j`. -/
theorem biasRow64 (b : FVec Ideal S64 .f32) : (shapeCast S1x64 b shapeCasts_S64_S1x64 : Mat 1 64) = row b := by
  funext i
  obtain ⟨u, j, rfl⟩ : ∃ (u : Fin 1) (j : Fin 64), i = ix2 u j := ⟨i 0, i 1, eq_ix2 i⟩
  exact shapeCast_a_1a_apply b shapeCasts_S64_S1x64 u j

variable (m : (ℓ : Loc nD τ sig) → Buf (Elt Ideal) ℓ) (ρ : Dev nD → PrngReg)

/-! ## What the first region finds -/

theorem V1_src (c : Dev nD) : W1 m ρ c (Proc.devRef .tc main_v1) = srcRow (m ((c : Thread nD τ).loc main_arg1)) := by
  show StableHlo.after hostOps0 (W0 m ρ c) (Proc.devRef .tc main_v1) = _
  after_results_simp <;> rfl

theorem V1_dst (c : Dev nD) : W1 m ρ c (Proc.devRef .tc main_v3) = dstRow (m ((c : Thread nD τ).loc main_arg1)) := by
  show StableHlo.after hostOps0 (W0 m ρ c) (Proc.devRef .tc main_v3) = _
  after_results_simp <;> rfl

/-- The summed neighbour features of the node features. -/
theorem V1_agg (c : Dev nD) : W1 m ρ c (Proc.devRef .tc main_v22) = agg (m ((c : Thread nD τ).loc main_arg1)) (m ((c : Thread nD τ).loc main_arg0)) := by
  show StableHlo.after hostOps0 (W0 m ρ c) (Proc.devRef .tc main_v22) = _
  after_results_simp <;> rfl

/-- The reciprocal-degree column. -/
theorem V1_invdeg (c : Dev nD) : W1 m ρ c (Proc.devRef .tc main_v12) = invDegCol (m ((c : Thread nD τ).loc main_arg1)) := by
  show StableHlo.after hostOps0 (W0 m ρ c) (Proc.devRef .tc main_v12) = _
  after_results_simp <;> rfl

/-- The first bias as a row. -/
theorem V1_bias (c : Dev nD) : W1 m ρ c (Proc.devRef .tc main_v23) = shapeCast S1x128 (m ((c : Thread nD τ).loc main_arg3)) shapeCasts_S128_S1x128 := by
  show StableHlo.after hostOps0 (W0 m ρ c) (Proc.devRef .tc main_v23) = _
  after_results_simp <;> rfl

theorem V1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl
theorem V1_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl
theorem V1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl
theorem V1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl
theorem V1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl
theorem V1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl

/-- The first layer's output as the two-argument layer function of the argument arrays. -/
def hidden (c : Dev nD) : Mat 100000 128 :=
  dense relu (agg (m ((c : Thread nD τ).loc main_arg1)) (m ((c : Thread nD τ).loc main_arg0))) (invDeg (deg (m ((c : Thread nD τ).loc main_arg1)))) (m ((c : Thread nD τ).loc main_arg0))
    (m ((c : Thread nD τ).loc main_arg2)) (row (m ((c : Thread nD τ).loc main_arg3))) (m ((c : Thread nD τ).loc main_arg4))

/-- The first region leaves the first layer in its output array. -/
theorem layer0_eq (c : Dev nD) : layer0 (V1 m ρ) c = hidden m c := by
  show dense relu (W1 m ρ c (Proc.devRef .tc main_v22)) (W1 m ρ c (Proc.devRef .tc main_v12)) (W1 m ρ c (Proc.devRef .tc main_arg0))
    (W1 m ρ c (Proc.devRef .tc main_arg2)) (W1 m ρ c (Proc.devRef .tc main_v23)) (W1 m ρ c (Proc.devRef .tc main_arg4)) = _
  rw [V1_agg, V1_invdeg, V1_arg0, V1_arg2, V1_bias, V1_arg4, invDegCol_eq, biasRow128]
  rfl

/-! ## What the first region leaves (the second stretch of host operations starts from it) -/

theorem W2_src (c : Dev nD) : W2 m ρ c (Proc.devRef .tc main_v1) = srcRow (m ((c : Thread nD τ).loc main_arg1)) :=
  (W2_of_ne m ρ c main_v1 (by decide)).trans (V1_src m ρ c)
theorem W2_dst (c : Dev nD) : W2 m ρ c (Proc.devRef .tc main_v3) = dstRow (m ((c : Thread nD τ).loc main_arg1)) :=
  (W2_of_ne m ρ c main_v3 (by decide)).trans (V1_dst m ρ c)
theorem W2_arg5 (c : Dev nD) : W2 m ρ c (Proc.devRef .tc main_arg5) = (m ((c : Thread nD τ).loc main_arg5)) :=
  (W2_of_ne m ρ c main_arg5 (by decide)).trans (V1_arg5 m ρ c)
theorem W2_arg6 (c : Dev nD) : W2 m ρ c (Proc.devRef .tc main_arg6) = (m ((c : Thread nD τ).loc main_arg6)) :=
  (W2_of_ne m ρ c main_arg6 (by decide)).trans (V1_arg6 m ρ c)
theorem W2_arg7 (c : Dev nD) : W2 m ρ c (Proc.devRef .tc main_arg7) = (m ((c : Thread nD τ).loc main_arg7)) :=
  (W2_of_ne m ρ c main_arg7 (by decide)).trans (V1_arg7 m ρ c)
/-- The reciprocal-degree column is an input of the first region: it leaves it as it found it. -/
theorem W2_invdeg (c : Dev nD) : W2 m ρ c (Proc.devRef .tc main_v12) = invDegCol (m ((c : Thread nD τ).loc main_arg1)) :=
  ((W2_arr m ρ c 1).trans (((dat0 (V1 m ρ) c).arrAt_in 1 rfl _).trans (A_eq0 (V1 m ρ) c 1))).trans (V1_invdeg m ρ c)
/-- The first region's output array holds the first layer. -/
theorem W2_hidden (c : Dev nD) : W2 m ρ c (Proc.devRef .tc main_v24) = hidden m c :=
  ((W2_arr m ρ c 6).trans (final0 (V1 m ρ) c)).trans (layer0_eq m ρ c)

/-! ## What the second region finds -/

/-- The summed neighbour features of the first layer's output. -/
theorem V3_agg (c : Dev nD) : W3 m ρ c (Proc.devRef .tc main_v34) = agg (m ((c : Thread nD τ).loc main_arg1)) (hidden m c) := by
  show StableHlo.after hostOps1 (W2 m ρ c) (Proc.devRef .tc main_v34) = _
  after_results_simp
  rw [W2_src, W2_dst, W2_hidden]
  rfl

theorem V3_invdeg (c : Dev nD) : W3 m ρ c (Proc.devRef .tc main_v12) = invDegCol (m ((c : Thread nD τ).loc main_arg1)) := by
  show StableHlo.after hostOps1 (W2 m ρ c) (Proc.devRef .tc main_v12) = _
  after_results_simp
  exact W2_invdeg m ρ c

theorem V3_hidden (c : Dev nD) : W3 m ρ c (Proc.devRef .tc main_v24) = hidden m c := by
  show StableHlo.after hostOps1 (W2 m ρ c) (Proc.devRef .tc main_v24) = _
  after_results_simp
  exact W2_hidden m ρ c

theorem V3_bias (c : Dev nD) : W3 m ρ c (Proc.devRef .tc main_v35) = shapeCast S1x64 (m ((c : Thread nD τ).loc main_arg6)) shapeCasts_S64_S1x64 := by
  show StableHlo.after hostOps1 (W2 m ρ c) (Proc.devRef .tc main_v35) = _
  after_results_simp
  rw [W2_arg6]
  rfl

theorem V3_arg5 (c : Dev nD) : W3 m ρ c (Proc.devRef .tc main_arg5) = (m ((c : Thread nD τ).loc main_arg5)) := by
  show StableHlo.after hostOps1 (W2 m ρ c) (Proc.devRef .tc main_arg5) = _
  after_results_simp
  exact W2_arg5 m ρ c

theorem V3_arg7 (c : Dev nD) : W3 m ρ c (Proc.devRef .tc main_arg7) = (m ((c : Thread nD τ).loc main_arg7)) := by
  show StableHlo.after hostOps1 (W2 m ρ c) (Proc.devRef .tc main_arg7) = _
  after_results_simp
  exact W2_arg7 m ρ c

/-- The second region leaves the second layer of the first layer's output in its output array: the two layers of the
    argument arrays. -/
theorem layer1_eq (c : Dev nD) : layer1 (V3 m ρ) c
    = sage (agg (m ((c : Thread nD τ).loc main_arg1))) (agg (m ((c : Thread nD τ).loc main_arg1))) (deg (m ((c : Thread nD τ).loc main_arg1))) (deg (m ((c : Thread nD τ).loc main_arg1)))
        (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show dense id (W3 m ρ c (Proc.devRef .tc main_v34)) (W3 m ρ c (Proc.devRef .tc main_v12)) (W3 m ρ c (Proc.devRef .tc main_v24))
    (W3 m ρ c (Proc.devRef .tc main_arg5)) (W3 m ρ c (Proc.devRef .tc main_v35)) (W3 m ρ c (Proc.devRef .tc main_arg7)) = _
  rw [V3_agg, V3_invdeg, V3_hidden, V3_arg5, V3_bias, V3_arg7, invDegCol_eq, biasRow64]
  rfl

/-- The fold of @main's four segments, read at the result buffer: the two layers of the argument arrays. -/
theorem result_eq (c : Dev nD) : W4 m ρ c (Proc.devRef .tc main_v36)
    = sage (agg (m ((c : Thread nD τ).loc main_arg1))) (agg (m ((c : Thread nD τ).loc main_arg1))) (deg (m ((c : Thread nD τ).loc main_arg1))) (deg (m ((c : Thread nD τ).loc main_arg1)))
        (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W4_arr m ρ c 6).trans (final1 (V3 m ρ) c)).trans (layer1_eq m ρ c)

end Cert.KernelIdeal.Chain

end
-- ==== Proof.RefTerm.lean ====
/-
  The reference's result as the two-layer function of its argument arrays. Each of its layers divides the summed
  neighbour features by max(deg, 1), multiplies into the left weights, adds the bias and the node features multiplied into
  the right weights (the first layer is then rectified): read index by index through the generated read-at-an-index
  lemmas, that is the dense layer that multiplies by the reciprocal degree, by the one law on quotients. The sums over
  neighbours (a gather followed by a scatter-add) are carried as one map of the feature matrix and never opened.
-/
import proofs.«140228_j19567871000655_2_alg».proof.Proof.Gen.ReferenceIdeal.Run
import proofs.«140228_j19567871000655_2_alg».proof.Proof.Gen.ReferenceIdeal.Read
import proofs.«140228_j19567871000655_2_alg».proof.Proof.SageSpec

noncomputable section

namespace Cert.ReferenceIdeal.RefValue

open Cert.ReferenceIdeal Cert.ReferenceIdeal.Read Idealize.ShloMosaic Idealize.ShloMosaic.ValueIdx Cert.Sage
open scoped BigOperators

/-- The first layer's sum over neighbours: gather the rows of `X` at the edges' sources, scatter-add them at the edges'
    targets. -/
def agg₁ (x1 : (⟨S2x640000, .i32⟩ : BufTy).Contents (Elt Ideal)) (X : Mat 100000 128) : Mat 100000 128 :=
  Host.scatterAdd (F := Ideal) (φ := .f32) scatter_S100000x128_S640000x1_S640000x128_1_0_0_1 (val_main_v11 (F := Ideal)) (val_main_v12 (F := Ideal) x1)
    (Host.gather gather_S100000x128_S640000x1_S640000x128_1_0_n_n_0_1_1128 X (val_main_v9 (F := Ideal) x1))

/-- The second layer's sum over neighbours (the same edges). -/
def agg₂ (x1 : (⟨S2x640000, .i32⟩ : BufTy).Contents (Elt Ideal)) (X : Mat 100000 128) : Mat 100000 128 :=
  Host.scatterAdd (F := Ideal) (φ := .f32) scatter_S100000x128_S640000x1_S640000x128_1_0_0_1 (val_main_v37 (F := Ideal)) (val_main_v38 (F := Ideal) x1)
    (Host.gather gather_S100000x128_S640000x1_S640000x128_1_0_n_n_0_1_1128 X (val_main_v35 (F := Ideal) x1))

/-- The first layer of the reference is the rectified dense layer of the summed neighbour features, the reciprocal
    degree and the node features. -/
theorem layer1 (x0 : (⟨S100000x128, .f32⟩ : BufTy).Contents (Elt Ideal)) (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v29 (F := Ideal) x0 x1 x2 x3 x4
      = dense relu (agg₁ x1 x0) (invDeg (val_main_v17 (F := Ideal) x1)) x0 x2 (row x3) x4 := by
  funext i
  obtain ⟨p, c, rfl⟩ : ∃ (p : Fin 100000) (c : Fin 128), i = ix2 p c := ⟨i 0, i 1, eq_ix2 i⟩
  rw [dense_ix2, ← denseAt_of_div]
  rw [val_main_v29_apply, val_main_v28_apply, val_main_v26_apply, val_main_v23_apply, val_main_v27_apply]
  unfold relu
  show max (((∑ k : Fin 128, val_main_v22 (F := Ideal) x0 x1 (lidx_main_v23 (ix2 p c) k) * x2 (ridx_main_v23 (ix2 p c) k))
        + val_main_v25 (F := Ideal) x3 (ix2 p c)) + ∑ k : Fin 128, x0 (lidx_main_v27 (ix2 p c) k) * x4 (ridx_main_v27 (ix2 p c) k))
      (val_main_call0_v0 (F := Ideal) (ix2 p c)) = _
  refine congrArg₂ max (congrArg₂ (· + ·) (congrArg₂ (· + ·) (Finset.sum_congr rfl fun k _ => ?_) ?_)
    (Finset.sum_congr rfl fun k _ => ?_)) ?_
  · -- a summed feature divided by max(deg, 1), times a left weight
    have el : lidx_main_v23 (ix2 p c) k = ix2 p k := funext fun a => Fin.ext (by match a with | ⟨0, _⟩ => rfl | ⟨1, _⟩ => rfl)
    have er : ridx_main_v23 (ix2 p c) k = ix2 k c := funext fun a => Fin.ext (by match a with | ⟨0, _⟩ => rfl | ⟨1, _⟩ => rfl)
    have ed : idx_main_v20 (idx_main_v21 (ix2 p k)) = ix1 p := funext fun a => Fin.ext (by match a with | ⟨0, _⟩ => rfl)
    rw [el, er, val_main_v22_apply, val_main_v21_apply, val_main_v20_apply, val_main_v19_apply, val_main_v18_apply,
      val_main_cst_3_apply, ed]
    rfl
  · -- the bias
    have eb : idx_main_v24 (idx_main_v25 (ix2 p c)) = ix1 c := funext fun a => Fin.ext (by match a with | ⟨0, _⟩ => rfl)
    rw [val_main_v25_apply, val_main_v24_apply, eb]
    rfl
  · -- a node feature times a right weight
    have el : lidx_main_v27 (ix2 p c) k = ix2 p k := funext fun a => Fin.ext (by match a with | ⟨0, _⟩ => rfl | ⟨1, _⟩ => rfl)
    have er : ridx_main_v27 (ix2 p c) k = ix2 k c := funext fun a => Fin.ext (by match a with | ⟨0, _⟩ => rfl | ⟨1, _⟩ => rfl)
    rw [el, er]
  · -- the zero the rectifier compares with
    rw [val_main_call0_v0_apply, val_main_call0_cst_apply]
    rfl

/-- The second layer of the reference is the dense layer of the summed neighbour features of the first layer's output,
    the reciprocal degree and that output. -/
theorem layer2 (x0 : (⟨S100000x128, .f32⟩ : BufTy).Contents (Elt Ideal)) (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal))
    (x7 : (⟨S128x64, .f32⟩ : BufTy).Contents (Elt Ideal)) :
    val_main_v54 (F := Ideal) x0 x1 x2 x3 x4 x5 x6 x7
      = dense id (agg₂ x1 (val_main_v29 (F := Ideal) x0 x1 x2 x3 x4)) (invDeg (val_main_v43 (F := Ideal) x1))
          (val_main_v29 (F := Ideal) x0 x1 x2 x3 x4) x5 (row x6) x7 := by
  funext i
  obtain ⟨p, c, rfl⟩ : ∃ (p : Fin 100000) (c : Fin 64), i = ix2 p c := ⟨i 0, i 1, eq_ix2 i⟩
  rw [dense_ix2, ← denseAt_of_div]
  rw [val_main_v54_apply, val_main_v52_apply, val_main_v49_apply, val_main_v53_apply]
  show ((∑ k : Fin 128, val_main_v48 (F := Ideal) x0 x1 x2 x3 x4 (lidx_main_v49 (ix2 p c) k) * x5 (ridx_main_v49 (ix2 p c) k))
        + val_main_v51 (F := Ideal) x6 (ix2 p c))
      + ∑ k : Fin 128, val_main_v29 (F := Ideal) x0 x1 x2 x3 x4 (lidx_main_v53 (ix2 p c) k) * x7 (ridx_main_v53 (ix2 p c) k) = _
  refine congrArg₂ (· + ·) (congrArg₂ (· + ·) (Finset.sum_congr rfl fun k _ => ?_) ?_) (Finset.sum_congr rfl fun k _ => ?_)
  · -- a summed feature divided by max(deg, 1), times a left weight
    have el : lidx_main_v49 (ix2 p c) k = ix2 p k := funext fun a => Fin.ext (by match a with | ⟨0, _⟩ => rfl | ⟨1, _⟩ => rfl)
    have er : ridx_main_v49 (ix2 p c) k = ix2 k c := funext fun a => Fin.ext (by match a with | ⟨0, _⟩ => rfl | ⟨1, _⟩ => rfl)
    have ed : idx_main_v46 (idx_main_v47 (ix2 p k)) = ix1 p := funext fun a => Fin.ext (by match a with | ⟨0, _⟩ => rfl)
    rw [el, er, val_main_v48_apply, val_main_v47_apply, val_main_v46_apply, val_main_v45_apply, val_main_v44_apply,
      val_main_cst_9_apply, ed]
    rfl
  · -- the bias
    have eb : idx_main_v50 (idx_main_v51 (ix2 p c)) = ix1 c := funext fun a => Fin.ext (by match a with | ⟨0, _⟩ => rfl)
    rw [val_main_v51_apply, val_main_v50_apply, eb]
    rfl
  · -- a first-layer feature times a right weight
    have el : lidx_main_v53 (ix2 p c) k = ix2 p k := funext fun a => Fin.ext (by match a with | ⟨0, _⟩ => rfl | ⟨1, _⟩ => rfl)
    have er : ridx_main_v53 (ix2 p c) k = ix2 k c := funext fun a => Fin.ext (by match a with | ⟨0, _⟩ => rfl | ⟨1, _⟩ => rfl)
    rw [el, er]

/-- The reference's result is the two-layer function of its arguments. -/
theorem result_eq (x0 : (⟨S100000x128, .f32⟩ : BufTy).Contents (Elt Ideal)) (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal))
    (x7 : (⟨S128x64, .f32⟩ : BufTy).Contents (Elt Ideal)) :
    val_main_v54 (F := Ideal) x0 x1 x2 x3 x4 x5 x6 x7
      = sage (agg₁ x1) (agg₂ x1) (val_main_v17 (F := Ideal) x1) (val_main_v43 (F := Ideal) x1) x0 x2 x3 x4 x5 x6 x7 := by
  rw [layer2, layer1]
  rfl

end Cert.ReferenceIdeal.RefValue

end
-- ==== Proof.lean ====
/-
  A two-layer mean-aggregating graph convolution on 100000 nodes and 640000 edges: the kernel program against its jnp
  reference, over the extended reals.

  Both programs gather the node features at the edges' sources and add them up at the edges' targets, count each node's
  in-degree the same way, and apply, twice, a dense layer
      (mean of neighbour features) · W_l + b + (node features) · W_r,
  rectified after the first layer. They differ in one place: the kernel program computes the column 1 / max(deg, 1) once
  on the host and MULTIPLIES the summed features by it inside the layer's kernel, the reference DIVIDES the summed
  features by max(deg, 1). Over the extended reals these agree at every value of deg: max(deg, 1) ≥ 1 is not zero, and
  off zero a quotient is the product with the inverse (`Cert.Sage.div_max_one`). Changes of float format are the identity
  there and a matrix product is the sum over the shared axis on both sides, so each layer is one function of its operands
  (`Cert.Sage.dense`), and the two layers one function `Cert.Sage.sage` of the argument arrays in which the
  gather-then-scatter-add is an opaque map, the same map in both programs.

  The kernel side: each layer's kernel runs over 25 blocks of 4000 rows; a row of a layer depends only on that row of its
  row-blocked operands, so the blocks written back tile the layer of the whole arrays (Proof/Blocks.lean); the host
  operations before and between the two regions give those arrays as terms of the arguments (Proof/HostChain.lean); the
  run itself, with the result buffer named, is Proof/NamedRun.lean. The reference side: its run is generated, and its
  result term read index by index is the same two layers (Proof/RefTerm.lean). The frames of the two kernel programs are
  generated whole; the reference's frame is its run with the result dropped. No rewrite was applied in idealizing the
  kernel, so there is nothing to preserve.
-/
import proofs.«140228_j19567871000655_2_alg».proof.Defs
import proofs.«140228_j19567871000655_2_alg».proof.Proof.Gen.Kernel
import proofs.«140228_j19567871000655_2_alg».proof.Proof.Gen.Kernel.Skeleton
import proofs.«140228_j19567871000655_2_alg».proof.Proof.Gen.Kernel.Launch
import proofs.«140228_j19567871000655_2_alg».proof.Proof.Gen.Kernel.Points
import proofs.«140228_j19567871000655_2_alg».proof.Proof.Gen.Kernel.Frame
import proofs.«140228_j19567871000655_2_alg».proof.Proof.Gen.KernelIdeal
import proofs.«140228_j19567871000655_2_alg».proof.Proof.Gen.KernelIdeal.Skeleton
import proofs.«140228_j19567871000655_2_alg».proof.Proof.Gen.KernelIdeal.Launch
import proofs.«140228_j19567871000655_2_alg».proof.Proof.Gen.KernelIdeal.Points
import proofs.«140228_j19567871000655_2_alg».proof.Proof.Gen.KernelIdeal.Frame
import proofs.«140228_j19567871000655_2_alg».proof.Proof.Gen.ReferenceIdeal
import proofs.«140228_j19567871000655_2_alg».proof.Proof.Gen.ReferenceIdeal.Run
import proofs.«140228_j19567871000655_2_alg».proof.Proof.Gen.ReferenceIdeal.Read
import proofs.«140228_j19567871000655_2_alg».proof.Proof.Gen.Pre_finite_inputs
import proofs.«140228_j19567871000655_2_alg».proof.Proof.NamedRun
import proofs.«140228_j19567871000655_2_alg».proof.Proof.HostChain
import proofs.«140228_j19567871000655_2_alg».proof.Proof.RefTerm
import Idealize.ShloMosaic.Adequacy
import Idealize.ShloMosaic.Init

set_option maxRecDepth 16384

noncomputable section

namespace Cert.Proof

open Idealize.ShloMosaic Idealize.ShloMosaic.TcCoe Idealize.SL.Sem Cert.Sage

/-! ## The two programs sum over neighbours, and count them, by the same maps -/

/-- The reference's first-layer sum over neighbours is the kernel program's. -/
theorem agg₁_eq (e : Cert.KernelIdeal.Chain.Edges) : Cert.ReferenceIdeal.RefValue.agg₁ e = Cert.KernelIdeal.Chain.agg e := rfl

/-- The reference's second-layer sum over neighbours is the kernel program's. -/
theorem agg₂_eq (e : Cert.KernelIdeal.Chain.Edges) : Cert.ReferenceIdeal.RefValue.agg₂ e = Cert.KernelIdeal.Chain.agg e := rfl

/-- The reference's degree, as its first layer counts it, is the kernel program's. -/
theorem deg₁_eq (e : Cert.KernelIdeal.Chain.Edges) :
    Cert.ReferenceIdeal.Read.val_main_v17 (F := Ideal) e = Cert.KernelIdeal.Chain.deg e := rfl

/-- The reference's degree, as its second layer counts it again, is the kernel program's. -/
theorem deg₂_eq (e : Cert.KernelIdeal.Chain.Edges) :
    Cert.ReferenceIdeal.Read.val_main_v43 (F := Ideal) e = Cert.KernelIdeal.Chain.deg e := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel program's result array ends at the two layers of its arguments, and so does the
    reference's, of arguments that agree. -/
theorem algebraic : Cert.algebraic_KernelIdeal_ReferenceIdeal := by
  intro m ρ m' ρ' _ hagree
  refine ⟨fun c => sage (Cert.KernelIdeal.Chain.agg (m ((c.tc : Thread Cert.KernelIdeal.nD Cert.KernelIdeal.τ).loc Cert.KernelIdeal.main_arg1)))
      (Cert.KernelIdeal.Chain.agg (m ((c.tc : Thread Cert.KernelIdeal.nD Cert.KernelIdeal.τ).loc Cert.KernelIdeal.main_arg1)))
      (Cert.KernelIdeal.Chain.deg (m ((c.tc : Thread Cert.KernelIdeal.nD Cert.KernelIdeal.τ).loc Cert.KernelIdeal.main_arg1)))
      (Cert.KernelIdeal.Chain.deg (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, Cert.ReferenceIdeal.RefValue.result_eq, h0, h1, h2, h3, h4, h5, h6, h7,
      agg₁_eq, agg₂_eq, deg₁_eq, deg₂_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
